-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v1_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v1_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_v31) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S256x1024 : Shape := ⟨2, ![256, 1024]⟩
abbrev S1024 : Shape := ⟨1, ![1024]⟩
abbrev S256x768 : Shape := ⟨2, ![256, 768]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel
  bcast_S_S256x1024 : S_.BroadcastsInDim S256x1024 (![] : Fin 0 → Fin S256x1024.rank)
  reducesTo_S256x1024_S_d0_1 : S256x1024.ReducesTo [0, 1] S_
  bcast_S_S1024 : S_.BroadcastsInDim S1024 (![] : Fin 0 → Fin S1024.rank)
  reducesTo_S1024_S_d0 : S1024.ReducesTo [0] S_
  bcast_S_S256x768 : S_.BroadcastsInDim S256x768 (![] : Fin 0 → Fin S256x768.rank)
  reducesTo_S256x768_S_d0_1 : S256x768.ReducesTo [0, 1] S_

variable [Facts]

def fn_part1 {F : FTy → Type} [FloatOps F] (main_arg4 : FVec F S1024 .f32) (main_arg5 : FVec F S256x1024 .f32) (main_arg6 : FVec F S256x768 .f32) (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S256x1024 .f32 := Host.absf main_arg5
  let main_cst_8 : FVec F S_ .f32 := constant S_ .f32 0x7F800000#32
  let main_v25 : FVec F S256x1024 .f32 := broadcastInDim S256x1024 ![] bcast_S_S256x1024 main_cst_8
  let main_v26 : IVec S256x1024 1 := cmpf .olt main_v24 main_v25
  let main_c_9 : IVec S_ 1 := constantI S_ 1 1#1
  let main_v27 : IVec S_ 1 := (fun x v => Host.reduce IntOp.andi x v reducesTo_S256x1024_S_d0_1 h_S_) main_v26 main_c_9
  let main_v28 : IVec S_ 1 := andi main_v23 main_v27
  let main_v29 : FVec F S256x768 .f32 := Host.absf main_arg6
  let main_cst_10 : FVec F S_ .f32 := constant S_ .f32 0x7F800000#32
  let main_v30 : FVec F S256x768 .f32 := broadcastInDim S256x768 ![] bcast_S_S256x768 main_cst_10
  let main_v31 : IVec S256x768 1 := cmpf .olt main_v29 main_v30
  let main_c_11 : IVec S_ 1 := constantI S_ 1 1#1
  let main_v32 : IVec S_ 1 := (fun x v => Host.reduce IntOp.andi x v reducesTo_S256x768_S_d0_1 h_S_) main_v31 main_c_11
  let main_v33 : IVec S_ 1 := andi main_v28 main_v32
  main_v33

def fn {F : FTy → Type} [FloatOps F] (main_arg0 : FVec F S32768x256 .f32) (main_arg1 : FVec F S32768x256 .f32) (main_arg2 : FVec F S32768x256 .f32) (main_arg3 : FVec F S256x1024 .f32) (main_arg4 : FVec F S1024 .f32) (main_arg5 : FVec F S256x1024 .f32) (main_arg6 : FVec F S256x768 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  let main_v4 : FVec F S32768x256 .f32 := Host.absf main_arg1
  let main_cst_0 : FVec F S_ .f32 := constant S_ .f32 0x7F800000#32
  let main_v5 : FVec F S32768x256 .f32 := broadcastInDim S32768x256 ![] bcast_S_S32768x256 main_cst_0
  let main_v6 : IVec S32768x256 1 := cmpf .olt main_v4 main_v5
  let main_c_1 : IVec S_ 1 := constantI S_ 1 1#1
  let main_v7 : IVec S_ 1 := (fun x v => Host.reduce IntOp.andi x v reducesTo_S32768x256_S_d0_1 h_S_) main_v6 main_c_1
  let main_v8 : IVec S_ 1 := andi main_v3 main_v7
  let main_v9 : FVec F S32768x256 .f32 := Host.absf main_arg2
  let main_cst_2 : FVec F S_ .f32 := constant S_ .f32 0x7F800000#32
  let main_v10 : FVec F S32768x256 .f32 := broadcastInDim S32768x256 ![] bcast_S_S32768x256 main_cst_2
  let main_v11 : IVec S32768x256 1 := cmpf .olt main_v9 main_v10
  let main_c_3 : IVec S_ 1 := constantI S_ 1 1#1
  let main_v12 : IVec S_ 1 := (fun x v => Host.reduce IntOp.andi x v reducesTo_S32768x256_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_arg4 main_arg5 main_arg6 main_v13 main_v16
-- ==== Kernel.lean ====
abbrev S32768x256 : Shape := ⟨2, ![32768, 256]⟩
abbrev S256x1024 : Shape := ⟨2, ![256, 1024]⟩
abbrev S1024 : Shape := ⟨1, ![1024]⟩
abbrev S256x768 : Shape := ⟨2, ![256, 768]⟩
abbrev S1x1024 : Shape := ⟨2, ![1, 1024]⟩
abbrev S1024x256 : Shape := ⟨2, ![1024, 256]⟩
abbrev S1024x1024 : Shape := ⟨2, ![1024, 1024]⟩
abbrev S1024x768 : Shape := ⟨2, ![1024, 768]⟩

abbrev nBuf : Space → Nat
  | .hbm => 10
  | .vmem => 14
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S256x1024, .f32⟩
  | .hbm, ⟨4, _⟩ => ⟨S1024, .f32⟩
  | .hbm, ⟨5, _⟩ => ⟨S256x1024, .f32⟩
  | .hbm, ⟨6, _⟩ => ⟨S256x768, .f32⟩
  | .hbm, ⟨7, _⟩ => ⟨S1x1024, .f32⟩
  | .hbm, ⟨8, _⟩ => ⟨S32768x256, .f32⟩
  | .hbm, ⟨9, _⟩ => ⟨S32768x256, .f32⟩
  | .local _ .vmem, ⟨0, _⟩ => ⟨S1024x256, .f32⟩
  | .local _ .vmem, ⟨1, _⟩ => ⟨S1024x256, .f32⟩
  | .local _ .vmem, ⟨2, _⟩ => ⟨S1024x256, .f32⟩
  | .local _ .vmem, ⟨3, _⟩ => ⟨S1024x256, .f32⟩
  | .local _ .vmem, ⟨4, _⟩ => ⟨S1024x256, .f32⟩
  | .local _ .vmem, ⟨5, _⟩ => ⟨S1024x256, .f32⟩
  | .local _ .vmem, ⟨6, _⟩ => ⟨S256x1024, .f32⟩
  | .local _ .vmem, ⟨7, _⟩ => ⟨S1x1024, .f32⟩
  | .local _ .vmem, ⟨8, _⟩ => ⟨S256x1024, .f32⟩
  | .local _ .vmem, ⟨9, _⟩ => ⟨S256x768, .f32⟩
  | .local _ .vmem, ⟨10, _⟩ => ⟨S1024x256, .f32⟩
  | .local _ .vmem, ⟨11, _⟩ => ⟨S1024x256, .f32⟩
  | .local _ .vmem, ⟨12, _⟩ => ⟨S1024x256, .f32⟩
  | .local _ .vmem, ⟨13, _⟩ => ⟨S1024x256, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1_0 : Ref sig .tc := ⟨.hbm, 8, rfl⟩
abbrev main_v1_1 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_stg8_0 : Ref sig .tc := ⟨.vmem, 12, rfl⟩
abbrev cc0_stg8_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11
abbrev cc0_sem8_0 : DmaSem sig := 12
abbrev cc0_sem8_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1024x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1024x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x768 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1024x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  shapeCasts_S1024_S1x1024 : S1024.ShapeCasts S1x1024
  inb_S1024x256_S1024x256_0_0 : ∀ a, (![0, 0] : Fin 2 → Nat) a + S1024x256.size a ≤ S1024x256.size a
  h_S1024x256 : 0 < S1024x256.numel
  bitsLt_bf16_f32 : FTy.bits .bf16 < FTy.bits .f32
  inb_S256x1024_S256x1024_0_0 : ∀ a, (![0, 0] : Fin 2 → Nat) a + S256x1024.size a ≤ S256x1024.size a
  h_S256x1024 : 0 < S256x1024.numel
  inb_S256x768_S256x768_0_0 : ∀ a, (![0, 0] : Fin 2 → Nat) a + S256x768.size a ≤ S256x768.size a
  h_S256x768 : 0 < S256x768.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  slices_S1024x1024_o0_0_S1024x256 : S1024x1024.Slices ![0, 0] S1024x256
  slices_S1024x1024_o0_256_S1024x256 : S1024x1024.Slices ![0, 256] S1024x256
  slices_S1024x1024_o0_512_S1024x256 : S1024x1024.Slices ![0, 512] S1024x256
  slices_S1024x1024_o0_768_S1024x256 : S1024x1024.Slices ![0, 768] S1024x256
  slices_S1024x768_o0_0_S1024x256 : S1024x768.Slices ![0, 0] S1024x256
  slices_S1024x768_o0_256_S1024x256 : S1024x768.Slices ![0, 256] S1024x256
  slices_S1024x768_o0_512_S1024x256 : S1024x768.Slices ![0, 512] S1024x256
  dot_S1024x256_S256x1024_S1024x1024_1_0_0_1_n_n_wf : DotDims.WF S1024x256 S256x1024 S1024x1024 [1] [0] [0] [1] [] []
  dot_S1024x256_S256x768_S1024x768_1_0_0_1_n_n_wf : DotDims.WF S1024x256 S256x768 S1024x768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x256.size a ≤ S32768x256.size a
  hwx0_0 : ∀ i : grid0.Coords, EltTy.bits .f32 = 32 ∨ (Rect.block (s := S32768x256) S1024x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x256.size a ≤ S32768x256.size a
  hwx0_1 : ∀ i : grid0.Coords, EltTy.bits .f32 = 32 ∨ (Rect.block (s := S32768x256) S1024x256.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x256.size a ≤ S32768x256.size a
  hwx0_2 : ∀ i : grid0.Coords, EltTy.bits .f32 = 32 ∨ (Rect.block (s := S32768x256) S1024x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256x1024.size a ≤ S256x1024.size a
  hwx0_3 : ∀ i : grid0.Coords, EltTy.bits .f32 = 32 ∨ (Rect.block (s := S256x1024) S256x1024.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S256x1024.size a ≤ S256x1024.size a
  hwx0_5 : ∀ i : grid0.Coords, EltTy.bits .f32 = 32 ∨ (Rect.block (s := S256x1024) S256x1024.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S256x768.size a ≤ S256x768.size a
  hwx0_6 : ∀ i : grid0.Coords, EltTy.bits .f32 = 32 ∨ (Rect.block (s := S256x768) S256x768.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1024x256.size a ≤ S32768x256.size a
  hwx0_7 : ∀ i : grid0.Coords, EltTy.bits .f32 = 32 ∨ (Rect.block (s := S32768x256) S1024x256.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1024x256.size a ≤ S32768x256.size a
  hwx0_8 : ∀ i : grid0.Coords, EltTy.bits .f32 = 32 ∨ (Rect.block (s := S32768x256) S1024x256.size (cc0_transform_8 i) (hinb0_8 i)).WholeWords (EltTy.packing .f32)

variable [Facts₀]

def dot_S1024x256_S256x1024_S1024x1024_1_0_0_1_n_n : DotDims S1024x256 S256x1024 S1024x1024 where
  lhsContracting := [1]
  rhsContracting := [0]
  lhsNonContracting := [0]
  rhsNonContracting := [1]
  lhsBatch := []
  rhsBatch := []
  wf := dot_S1024x256_S256x1024_S1024x1024_1_0_0_1_n_n_wf
def dot_S1024x256_S256x768_S1024x768_1_0_0_1_n_n : DotDims S1024x256 S256x768 S1024x768 where
  lhsContracting := [1]
  rhsContracting := [0]
  lhsNonContracting := [0]
  rhsNonContracting := [1]
  lhsBatch := []
  rhsBatch := []
  wf := dot_S1024x256_S256x768_S1024x768_1_0_0_1_n_n_wf

abbrev win0_0 : Pipeline.Window sig grid0 :=
  Pipeline.Window.ofSpec (Memref.whole main_arg0) S1024x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1024x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x256.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S256x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S256x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S256x768.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v1_0) S1024x256.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v1_1) S1024x256.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S32768x256 : Shape := ⟨2, ![32768, 256]⟩
abbrev S256x1024 : Shape := ⟨2, ![256, 1024]⟩
abbrev S1024 : Shape := ⟨1, ![1024]⟩
abbrev S256x768 : Shape := ⟨2, ![256, 768]⟩
abbrev S32768x1024 : Shape := ⟨2, ![32768, 1024]⟩
abbrev S1x1024 : Shape := ⟨2, ![1, 1024]⟩
abbrev S32768x768 : Shape := ⟨2, ![32768, 768]⟩
abbrev S_ : Shape := ⟨0, ![]⟩

abbrev nBuf : Space → Nat
  | .hbm => 54
  | .vmem => 0
  | .smem => 0
  | _ => 0

abbrev bufTy : (tb : Table) → Fin (tcTables nBuf tb) → BufTy
  | .hbm, ⟨0, _⟩ => ⟨S32768x256, .f32⟩
  | .hbm, ⟨1, _⟩ => ⟨S32768x256, .f32⟩
  | .hbm, ⟨2, _⟩ => ⟨S32768x256, .f32⟩
  | .hbm, ⟨3, _⟩ => ⟨S256x1024, .f32⟩
  | .hbm, ⟨4, _⟩ => ⟨S1024, .f32⟩
  | .hbm, ⟨5, _⟩ => ⟨S256x1024, .f32⟩
  | .hbm, ⟨6, _⟩ => ⟨S256x768, .f32⟩
  | .hbm, ⟨7, _⟩ => ⟨S32768x1024, .f32⟩
  | .hbm, ⟨8, _⟩ => ⟨S1x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S32768x1024, .f32⟩
  | .hbm, ⟨13, _⟩ => ⟨S32768x768, .f32⟩
  | .hbm, ⟨14, _⟩ => ⟨S32768x256, .f32⟩
  | .hbm, ⟨15, _⟩ => ⟨S32768x256, .f32⟩
  | .hbm, ⟨16, _⟩ => ⟨S32768x256, .f32⟩
  | .hbm, ⟨17, _⟩ => ⟨S32768x256, .f32⟩
  | .hbm, ⟨18, _⟩ => ⟨S32768x256, .f32⟩
  | .hbm, ⟨19, _⟩ => ⟨S32768x256, .f32⟩
  | .hbm, ⟨20, _⟩ => ⟨S32768x256, .f32⟩
  | .hbm, ⟨21, _⟩ => ⟨S32768x256, .f32⟩
  | .hbm, ⟨22, _⟩ => ⟨S32768x256, .f32⟩
  | .hbm, ⟨23, _⟩ => ⟨S32768x256, .f32⟩
  | .hbm, ⟨24, _⟩ => ⟨S_, .f32⟩
  | .hbm, ⟨25, _⟩ => ⟨S32768x256, .f32⟩
  | .hbm, ⟨26, _⟩ => ⟨S32768x256, .f32⟩
  | .hbm, ⟨27, _⟩ => ⟨S_, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S_, .f32⟩
  | .hbm, ⟨34, _⟩ => ⟨S32768x256, .f32⟩
  | .hbm, ⟨35, _⟩ => ⟨S32768x256, .f32⟩
  | .hbm, ⟨36, _⟩ => ⟨S_, .f32⟩
  | .hbm, ⟨37, _⟩ => ⟨S32768x256, .f32⟩
  | .hbm, ⟨38, _⟩ => ⟨S32768x256, .f32⟩
  | .hbm, ⟨39, _⟩ => ⟨S32768x256, .f32⟩
  | .hbm, ⟨40, _⟩ => ⟨S32768x256, .f32⟩
  | .hbm, ⟨41, _⟩ => ⟨S32768x256, .f32⟩
  | .hbm, ⟨42, _⟩ => ⟨S32768x256, .f32⟩
  | .hbm, ⟨43, _⟩ => ⟨S32768x256, .f32⟩
  | .hbm, ⟨44, _⟩ => ⟨S32768x256, .f32⟩
  | .hbm, ⟨45, _⟩ => ⟨S32768x256, .f32⟩
  | .hbm, ⟨46, _⟩ => ⟨S_, .f32⟩
  | .hbm, ⟨47, _⟩ => ⟨S32768x256, .f32⟩
  | .hbm, ⟨48, _⟩ => ⟨S32768x256, .f32⟩
  | .hbm, ⟨49, _⟩ => ⟨S_, .f32⟩
  | .hbm, ⟨50, _⟩ => ⟨S32768x256, .f32⟩
  | .hbm, ⟨51, _⟩ => ⟨S32768x256, .f32⟩
  | .hbm, ⟨52, _⟩ => ⟨S32768x256, .f32⟩
  | .hbm, ⟨53, _⟩ => ⟨S32768x256, .f32⟩
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst : Ref sig .tc := ⟨.hbm, 24, rfl⟩
abbrev main_v17 : Ref sig .tc := ⟨.hbm, 25, rfl⟩
abbrev main_v18 : Ref sig .tc := ⟨.hbm, 26, rfl⟩
abbrev main_cst_0 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_1 : Ref sig .tc := ⟨.hbm, 33, rfl⟩
abbrev main_v24 : Ref sig .tc := ⟨.hbm, 34, rfl⟩
abbrev main_v25 : Ref sig .tc := ⟨.hbm, 35, rfl⟩
abbrev main_cst_2 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_3 : Ref sig .tc := ⟨.hbm, 46, rfl⟩
abbrev main_v35 : Ref sig .tc := ⟨.hbm, 47, rfl⟩
abbrev main_v36 : Ref sig .tc := ⟨.hbm, 48, rfl⟩
abbrev main_cst_4 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32768x1024_0_1 : S1x1024.BroadcastsInDim S32768x1024 (![0, 1] : Fin 2 → Fin S32768x1024.rank)
  slices_S32768x1024_S32768x256_0_0 : S32768x1024.Slices ![0, 0] S32768x256
  slices_S32768x1024_S32768x256_0_256 : S32768x1024.Slices ![0, 256] S32768x256
  slices_S32768x1024_S32768x256_0_512 : S32768x1024.Slices ![0, 512] S32768x256
  slices_S32768x1024_S32768x256_0_768 : S32768x1024.Slices ![0, 768] S32768x256
  slices_S32768x768_S32768x256_0_0 : S32768x768.Slices ![0, 0] S32768x256
  slices_S32768x768_S32768x256_0_256 : S32768x768.Slices ![0, 256] S32768x256
  slices_S32768x768_S32768x256_0_512 : S32768x768.Slices ![0, 512] S32768x256
  bcast_S_S32768x256 : S_.BroadcastsInDim S32768x256 (![] : Fin 0 → Fin S32768x256.rank)
  dot_S32768x256_S256x1024_S32768x1024_1_0_0_1_n_n_wf : DotDims.WF S32768x256 S256x1024 S32768x1024 [1] [0] [0] [1] [] []
  dot_S32768x256_S256x768_S32768x768_1_0_0_1_n_n_wf : DotDims.WF S32768x256 S256x768 S32768x768 [1] [0] [0] [1] [] []

variable [Facts₀]

def dot_S32768x256_S256x1024_S32768x1024_1_0_0_1_n_n : DotDims S32768x256 S256x1024 S32768x1024 where
  lhsContracting := [1]
  rhsContracting := [0]
  lhsNonContracting := [0]
  rhsNonContracting := [1]
  lhsBatch := []
  rhsBatch := []
  wf := dot_S32768x256_S256x1024_S32768x1024_1_0_0_1_n_n_wf
def dot_S32768x256_S256x768_S32768x768_1_0_0_1_n_n : DotDims S32768x256 S256x768 S32768x768 where
  lhsContracting := [1]
  rhsContracting := [0]
  lhsNonContracting := [0]
  rhsNonContracting := [1]
  lhsBatch := []
  rhsBatch := []
  wf := dot_S32768x256_S256x768_S32768x768_1_0_0_1_n_n_wf

class Facts : Prop extends Facts₀ where

variable [Facts]
-- ==== Proof.LibMatmulNN.lean ====
/-
  A reusable lemma: a matrix product on the matrix unit, read at an entry.

  A `tpu.matmul` of an [M, K] operand by a [K, N] operand — contracting axis 1 of the left with axis 0 of the right, no
  batch axes — accumulated into the zero splat, read over the extended reals at the output entry (p, q), is the inner
  product of row p of the left operand with column q of the right one:

      (L · R)[p, q] = Σ_{k < K} L[p, k] · R[k, q].

  Generic in the extents M, K, N and in the operands' float formats; the dimension record may be any one that equals the
  plain M×K by K×N record (a printed program's own record does, by unfolding).
-/
import Idealize.ShloMosaic.PureOps.Ideal.Laws
import Idealize.ShloMosaic.Lib.ValueIdx

noncomputable section

namespace Cert.MatmulNN

open Idealize.ShloMosaic Idealize.ShloMosaic.ValueIdx

variable {M K N : Nat} {φ₁ φ₂ : FTy}

/-- The left operand's index at output (p, q) and contraction position k is (p, k). -/
theorem lhsIdx_plain (p : Fin M) (q : Fin N) (k : Fin K) :
    (DotDims.plain M K N).lhsIdx (ix2 p q) ((contrEquiv1 (DotDims.plain M K N) K rfl rfl).symm k) = ix2 p k :=
  funext fun a => Fin.ext (by
    match a with
    | ⟨0, _⟩ => rfl
    | ⟨1, _⟩ =>
      exact ((DotDims.plain M K N).lhsIdx_val_of_single rfl (ix2 p q) _).trans
        (contrEquiv1_symm_val (DotDims.plain M K N) K rfl rfl k))

/-- The right operand's index at output (p, q) and contraction position k is (k, q). -/
theorem rhsIdx_plain (p : Fin M) (q : Fin N) (k : Fin K) :
    (DotDims.plain M K N).rhsIdx (ix2 p q) ((contrEquiv1 (DotDims.plain M K N) K rfl rfl).symm k) = ix2 k q :=
  funext fun a => Fin.ext (by
    match a with
    | ⟨0, _⟩ =>
      exact ((DotDims.plain M K N).rhsIdx_val_of_single rfl (ix2 p q) _).trans
        (contrEquiv1_symm_val (DotDims.plain M K N) K rfl rfl k)
    | ⟨1, _⟩ => rfl)

/-- A matrix product into zeros, at entry (p, q): the inner product of row p with column q. -/
theorem matmul_zero_apply (D : DotDims ⟨2, ![M, K]⟩ ⟨2, ![K, N]⟩ ⟨2, ![M, N]⟩) (hD : D = DotDims.plain M K N)
    (prec : Option ContractPrecision) (lhs : FVec Ideal ⟨2, ![M, K]⟩ φ₁) (rhs : FVec Ideal ⟨2, ![K, N]⟩ φ₂)
    (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  subst hD
  rw [Ideal.matmul_constant_zero_apply, ← Equiv.sum_comp (contrEquiv1 (DotDims.plain M K N) K rfl rfl).symm]
  refine Finset.sum_congr rfl fun k _ => ?_
  rw [lhsIdx_plain, rhsIdx_plain]

end Cert.MatmulNN

end
-- ==== Proof.Cell.lean ====
/-
  One step of a peephole LSTM cell on the extended reals, row by row.

  A row of the batch carries an input row x, a hidden row h and a cell row c, each of 256 entries. The four gate
  pre-activations of the row are the 1024 entries

      z[q] = (Σ_k x[k]·Wx[k,q] + b[q]) + Σ_k h[k]·Wh[k,q],

  laid out as four consecutive blocks of 256 columns (input, forget, candidate, output), and the three peephole
  projections of the old cell row are the 768 entries p[q] = Σ_k c[k]·Wc[k,q], three blocks of 256 (input, forget,
  output). With σ the logistic function, entry j of the new cell row and of the new hidden row are

      c'[j] = σ(z[j] + p[j]) · tanh(z[512 + j]) + σ(z[256 + j] + p[256 + j]) · c[j],
      h'[j] = σ(z[768 + j] + p[512 + j]) · tanh(c'[j]).

  The entries of row r of the result depend on row r of x, h and c only, which is why the rows may be processed in
  blocks of any height. The only algebra used later is that a sum of three extended reals may be taken in either
  of the orders (a + b) + c and (a + c) + b: addition on the extended reals is commutative and associative, at the
  infinities too, so no finiteness is asked of the arguments.
-/
import Idealize.ShloMosaic.PureOps.Ideal
import Idealize.ShloMosaic.Lib.ValueIdx

noncomputable section

namespace Cert.Lstm

open Idealize.ShloMosaic Idealize.ShloMosaic.ValueIdx
open scoped BigOperators

/-- Column `j` of the block of 256 columns that starts at column `o`, in a row of `n` columns. -/
abbrev gateCol (n o : Nat) (ho : o + 256 ≤ n) (j : Fin 256) : Fin n := ⟨j.val + o, by omega⟩

/-- Row `r` of a matrix with 256 columns. -/
abbrev rowOf {R : Nat} (X : FVec Ideal ⟨2, ![R, 256]⟩ .f32) (r : Fin R) : Fin 256 → EReal := fun k => X (ix2 r k)

section
variable (xr hr cr : Fin 256 → EReal)
variable (Wx Wh : FVec Ideal ⟨2, ![256, 1024]⟩ .f32) (b : Fin 1024 → EReal) (Wc : FVec Ideal ⟨2, ![256, 768]⟩ .f32)

/-- The gate pre-activation at column `q`: the input row through `Wx`, plus the bias, plus the hidden row through `Wh`. -/
def gate (q : Fin 1024) : EReal :=
  (∑ k : Fin 256, xr k * Wx (ix2 k q) + b q) + ∑ k : Fin 256, hr k * Wh (ix2 k q)

/-- The same three terms with the bias added last. -/
theorem gate_bias_last (q : Fin 1024) :
    (∑ k : Fin 256, xr k * Wx (ix2 k q) + ∑ k : Fin 256, hr k * Wh (ix2 k q)) + b q = gate xr hr Wx Wh b q :=
  add_right_comm _ _ _

/-- The peephole projection of the old cell row at column `q`. -/
def peep (q : Fin 768) : EReal := ∑ k : Fin 256, cr k * Wc (ix2 k q)

/-- Entry `j` of the new cell row. -/
def cellAt (j : Fin 256) : EReal :=
  Ideal.logistic (gate xr hr Wx Wh b (gateCol 1024 0 (by decide) j) + peep cr Wc (gateCol 768 0 (by decide) j))
      * Ideal.tanh (gate xr hr Wx Wh b (gateCol 1024 512 (by decide) j))
    + Ideal.logistic (gate xr hr Wx Wh b (gateCol 1024 256 (by decide) j) + peep cr Wc (gateCol 768 256 (by decide) j))
      * cr j

/-- Entry `j` of the new hidden row. -/
def hiddenAt (j : Fin 256) : EReal :=
  Ideal.logistic (gate xr hr Wx Wh b (gateCol 1024 768 (by decide) j) + peep cr Wc (gateCol 768 512 (by decide) j))
    * Ideal.tanh (cellAt xr hr cr Wx Wh b Wc j)

end

/-- The new cell state of a whole batch of `R` rows, entry by entry. -/
def cellNext {R : Nat} (X H C : FVec Ideal ⟨2, ![R, 256]⟩ .f32) (Wx Wh : FVec Ideal ⟨2, ![256, 1024]⟩ .f32)
    (b : Fin 1024 → EReal) (Wc : FVec Ideal ⟨2, ![256, 768]⟩ .f32) : FVec Ideal ⟨2, ![R, 256]⟩ .f32 :=
  fun i => cellAt (rowOf X (i 0)) (rowOf H (i 0)) (rowOf C (i 0)) Wx Wh b Wc (i 1)

/-- The new hidden state of a whole batch of `R` rows, entry by entry. -/
def hiddenNext {R : Nat} (X H C : FVec Ideal ⟨2, ![R, 256]⟩ .f32) (Wx Wh : FVec Ideal ⟨2, ![256, 1024]⟩ .f32)
    (b : Fin 1024 → EReal) (Wc : FVec Ideal ⟨2, ![256, 768]⟩ .f32) : FVec Ideal ⟨2, ![R, 256]⟩ .f32 :=
  fun i => hiddenAt (rowOf X (i 0)) (rowOf H (i 0)) (rowOf C (i 0)) Wx Wh b Wc (i 1)

end Cert.Lstm

end
-- ==== Proof.Block.lean ====
/-
  What one grid point of the kernel leaves in its two output blocks, entry by entry.

  A grid point works on a block of 1024 rows: the blocks X, H, C of the input, hidden and cell arrays, the whole weight
  matrices and the bias as a 1×1024 row. Its body forms Z = (X·Wx + H·Wh) + bias (two matrix products into zeros, the
  operands narrowed to bf16 first, which changes nothing on the extended reals) and P = C·Wc, cuts Z into four and P into
  three blocks of 256 columns, and stores σ(Z₀+P₀)·tanh Z₂ + σ(Z₁+P₁)·C and σ(Z₃+P₂)·tanh(the former). Read at entry
  (p, j) of the block these are the cell's two formulas for row p: Z at (p, q) is the row's gate pre-activation at
  column q, with its bias added last instead of in the middle, and P at (p, q) is the row's peephole projection.
-/
import proofs.«132181_j91027536871504_1_alg».proof.Proof.Gen.KernelIdeal.Value
import proofs.«132181_j91027536871504_1_alg».proof.Proof.LibMatmulNN
import proofs.«132181_j91027536871504_1_alg».proof.Proof.Cell
import Idealize.ShloMosaic.Lib.Pipeline.Value
import Idealize.ShloMosaic.PureOps.Ideal.Laws

noncomputable section

namespace Cert.Lstm.Block

open Cert.KernelIdeal Cert.KernelIdeal.Gen Idealize.ShloMosaic Idealize.ShloMosaic.ValueIdx Cert.Lstm
open scoped BigOperators

/-- The bias as a function of the column, from its 1×1024 row. -/
abbrev biasOf (B : Vec Ideal S1x1024 .f32) : Fin 1024 → EReal := fun q => B (ix2 0 q)

theorem zeroOffsets : (![0, 0] : Fin 2 → Nat) = fun _ => 0 := funext fun a => by fin_cases a <;> rfl

/-- The body's Z at (p, q): row p's gate pre-activation at column q. -/
theorem gates_apply (X H : Vec Ideal S1024x256 .f32) (Wx Wh : Vec Ideal S256x1024 .f32) (B : Vec Ideal S1x1024 .f32)
    (p : Fin 1024) (q : Fin 1024) :
    k0_pay1 (F := Ideal) X H Wx Wh B (ix2 p q) = gate (rowOf X p) (rowOf H p) Wx Wh (biasOf B) q := by
  refine Eq.trans ?_ (gate_bias_last (rowOf X p) (rowOf H p) Wx Wh (biasOf B) q)
  have e1 := Cert.MatmulNN.matmul_zero_apply dot_S1024x256_S256x1024_S1024x1024_1_0_0_1_n_n rfl none
    (truncf (F := Ideal) .bf16 X bitsLt_bf16_f32) (truncf (F := Ideal) .bf16 Wx bitsLt_bf16_f32) p q
  have e2 := Cert.MatmulNN.matmul_zero_apply dot_S1024x256_S256x1024_S1024x1024_1_0_0_1_n_n rfl none
    (truncf (F := Ideal) .bf16 H bitsLt_bf16_f32) (truncf (F := Ideal) .bf16 Wh bitsLt_bf16_f32) p q
  have e3 : broadcastTo S1024x1024 (shapeCast S1x1024 B shapeCasts_S1x1024_S1x1024) broadcasts_S1x1024_S1024x1024 (ix2 p q)
      = biasOf B q := by
    rw [shapeCast_self]
    exact broadcastTo_apply B _ (ix2 p q) (ix2 0 q) (fun a => match a with
      | ⟨0, _⟩ => by show (0 : Nat) = if (1 : Nat) = 1 then 0 else p.val; rw [if_pos rfl]
      | ⟨1, _⟩ => by show q.val = if (1024 : Nat) = 1 then 0 else q.val; rw [if_neg (by decide)])
  unfold k0_pay1
  exact congrArg₂ (· + ·) (congrArg₂ (· + ·) e1 e2) e3

/-- The body's P at (p, q): row p's peephole projection at column q. -/
theorem peep_apply (C : Vec Ideal S1024x256 .f32) (Wc : Vec Ideal S256x768 .f32) (p : Fin 1024) (q : Fin 768) :
    k0_pay2 (F := Ideal) C Wc (ix2 p q) = peep (rowOf C p) Wc q := by
  unfold k0_pay2
  exact Cert.MatmulNN.matmul_zero_apply dot_S1024x256_S256x768_S1024x768_1_0_0_1_n_n rfl none
    (truncf (F := Ideal) .bf16 C bitsLt_bf16_f32) (truncf (F := Ideal) .bf16 Wc bitsLt_bf16_f32) p q

/-- The block stored as new hidden state, at (p, j): the cell's hidden formula for row p. -/
theorem hiddenBlock_apply (X H : Vec Ideal S1024x256 .f32) (Wx Wh : Vec Ideal S256x1024 .f32) (B : Vec Ideal S1x1024 .f32)
    (C : Vec Ideal S1024x256 .f32) (Wc : Vec Ideal S256x768 .f32) (p : Fin 1024) (j : Fin 256) :
    Value.E7 (F := Ideal) X H Wx Wh B C Wc (ix2 p j)
      = hiddenAt (rowOf X p) (rowOf H p) (rowOf C p) Wx Wh (biasOf B) Wc j := by
  have i0 : Value.ix7_0 (ix2 p j) = ix2 p (gateCol 1024 768 (by decide) j) := funext fun a => match a with | ⟨0, _⟩ => rfl | ⟨1, _⟩ => rfl
  have i1 : Value.ix7_1 (ix2 p j) = ix2 p (gateCol 768 512 (by decide) j) := funext fun a => match a with | ⟨0, _⟩ => rfl | ⟨1, _⟩ => rfl
  have i2 : Value.ix7_2 (ix2 p j) = ix2 p (gateCol 1024 0 (by decide) j) := funext fun a => match a with | ⟨0, _⟩ => rfl | ⟨1, _⟩ => rfl
  have i3 : Value.ix7_3 (ix2 p j) = ix2 p (gateCol 768 0 (by decide) j) := funext fun a => match a with | ⟨0, _⟩ => rfl | ⟨1, _⟩ => rfl
  have i4 : Value.ix7_4 (ix2 p j) = ix2 p (gateCol 1024 512 (by decide) j) := funext fun a => match a with | ⟨0, _⟩ => rfl | ⟨1, _⟩ => rfl
  have i5 : Value.ix7_5 (ix2 p j) = ix2 p (gateCol 1024 256 (by decide) j) := funext fun a => match a with | ⟨0, _⟩ => rfl | ⟨1, _⟩ => rfl
  have i6 : Value.ix7_6 (ix2 p j) = ix2 p (gateCol 768 256 (by decide) j) := funext fun a => match a with | ⟨0, _⟩ => rfl | ⟨1, _⟩ => rfl
  have i7 : Value.ix7_7 (ix2 p j) = ix2 p j := funext fun a => match a with | ⟨0, _⟩ => rfl | ⟨1, _⟩ => rfl
  show FloatOps.mulf (FloatOps.logistic (FloatOps.addf ((k0_pay1 X H Wx Wh B) (Value.ix7_0 (ix2 p j))) ((k0_pay2 C Wc) (Value.ix7_1 (ix2 p j)))))
      (FloatOps.tanh (FloatOps.addf (FloatOps.mulf (FloatOps.logistic (FloatOps.addf ((k0_pay1 X H Wx Wh B) (Value.ix7_2 (ix2 p j))) ((k0_pay2 C Wc) (Value.ix7_3 (ix2 p j)))))
        (FloatOps.tanh ((k0_pay1 X H Wx Wh B) (Value.ix7_4 (ix2 p j)))))
        (FloatOps.mulf (FloatOps.logistic (FloatOps.addf ((k0_pay1 X H Wx Wh B) (Value.ix7_5 (ix2 p j))) ((k0_pay2 C Wc) (Value.ix7_6 (ix2 p j))))) (C (Value.ix7_7 (ix2 p j)))))) = _
  rw [i0, i1, i2, i3, i4, i5, i6, i7, gates_apply, gates_apply, gates_apply, gates_apply, peep_apply, peep_apply, peep_apply]
  rfl

/-- The block stored as new cell state, at (p, j): the cell's formula for row p. -/
theorem cellBlock_apply (X H : Vec Ideal S1024x256 .f32) (Wx Wh : Vec Ideal S256x1024 .f32) (B : Vec Ideal S1x1024 .f32)
    (C : Vec Ideal S1024x256 .f32) (Wc : Vec Ideal S256x768 .f32) (p : Fin 1024) (j : Fin 256) :
    Value.E8 (F := Ideal) X H Wx Wh B C Wc (ix2 p j)
      = cellAt (rowOf X p) (rowOf H p) (rowOf C p) Wx Wh (biasOf B) Wc j := by
  have i0 : Value.ix8_0 (ix2 p j) = ix2 p (gateCol 1024 0 (by decide) j) := funext fun a => match a with | ⟨0, _⟩ => rfl | ⟨1, _⟩ => rfl
  have i1 : Value.ix8_1 (ix2 p j) = ix2 p (gateCol 768 0 (by decide) j) := funext fun a => match a with | ⟨0, _⟩ => rfl | ⟨1, _⟩ => rfl
  have i2 : Value.ix8_2 (ix2 p j) = ix2 p (gateCol 1024 512 (by decide) j) := funext fun a => match a with | ⟨0, _⟩ => rfl | ⟨1, _⟩ => rfl
  have i3 : Value.ix8_3 (ix2 p j) = ix2 p (gateCol 1024 256 (by decide) j) := funext fun a => match a with | ⟨0, _⟩ => rfl | ⟨1, _⟩ => rfl
  have i4 : Value.ix8_4 (ix2 p j) = ix2 p (gateCol 768 256 (by decide) j) := funext fun a => match a with | ⟨0, _⟩ => rfl | ⟨1, _⟩ => rfl
  have i5 : Value.ix8_5 (ix2 p j) = ix2 p j := funext fun a => match a with | ⟨0, _⟩ => rfl | ⟨1, _⟩ => rfl
  show FloatOps.addf (FloatOps.mulf (FloatOps.logistic (FloatOps.addf ((k0_pay1 X H Wx Wh B) (Value.ix8_0 (ix2 p j))) ((k0_pay2 C Wc) (Value.ix8_1 (ix2 p j)))))
        (FloatOps.tanh ((k0_pay1 X H Wx Wh B) (Value.ix8_2 (ix2 p j)))))
      (FloatOps.mulf (FloatOps.logistic (FloatOps.addf ((k0_pay1 X H Wx Wh B) (Value.ix8_3 (ix2 p j))) ((k0_pay2 C Wc) (Value.ix8_4 (ix2 p j))))) (C (Value.ix8_5 (ix2 p j)))) = _
  rw [i0, i1, i2, i3, i4, i5, gates_apply, gates_apply, gates_apply, peep_apply, peep_apply]
  rfl

/-- What the body leaves in the hidden-state window's buffer, from the seven input blocks in window order
    (x, h, c, Wx, bias row, Wh, Wc), at (p, j). -/
theorem hiddenOut_apply (x0 x1 x2 : Vec Ideal S1024x256 .f32) (x3 : Vec Ideal S256x1024 .f32) (x4 : Vec Ideal S1x1024 .f32)
    (x5 : Vec Ideal S256x1024 .f32) (x6 : Vec Ideal S256x768 .f32) (p : Fin 1024) (j : Fin 256) :
    out0_7 (F := Ideal) x0 x1 x2 x3 x4 x5 x6 (ix2 p j)
      = hiddenAt (rowOf x0 p) (rowOf x1 p) (rowOf x2 p) x3 x5 (biasOf x4) x6 j := by
  have l0 : View.ld x0 r0_0 = x0 := View.ld_unit_zero zeroOffsets _ x0
  have l1 : View.ld x1 r0_0 = x1 := View.ld_unit_zero zeroOffsets _ x1
  have l2 : View.ld x2 r0_0 = x2 := View.ld_unit_zero zeroOffsets _ x2
  have l3 : View.ld x3 r0_1 = x3 := View.ld_unit_zero zeroOffsets _ x3
  have l4 : View.ld x4 r0_3 = x4 := View.ld_unit_zero zeroOffsets _ x4
  have l5 : View.ld x5 r0_1 = x5 := View.ld_unit_zero zeroOffsets _ x5
  have l6 : View.ld x6 r0_2 = x6 := View.ld_unit_zero zeroOffsets _ x6
  unfold out0_7
  rw [l0, l1, l2, l3, l4, l5, l6]
  exact (Value.canon7_eq x0 x1 x3 x5 x4 x2 x6 (ix2 p j)).trans (hiddenBlock_apply x0 x1 x3 x5 x4 x2 x6 p j)

/-- What the body leaves in the cell-state window's buffer, likewise. -/
theorem cellOut_apply (x0 x1 x2 : Vec Ideal S1024x256 .f32) (x3 : Vec Ideal S256x1024 .f32) (x4 : Vec Ideal S1x1024 .f32)
    (x5 : Vec Ideal S256x1024 .f32) (x6 : Vec Ideal S256x768 .f32) (p : Fin 1024) (j : Fin 256) :
    out0_8 (F := Ideal) x0 x1 x2 x3 x4 x5 x6 (ix2 p j)
      = cellAt (rowOf x0 p) (rowOf x1 p) (rowOf x2 p) x3 x5 (biasOf x4) x6 j := by
  have l0 : View.ld x0 r0_0 = x0 := View.ld_unit_zero zeroOffsets _ x0
  have l1 : View.ld x1 r0_0 = x1 := View.ld_unit_zero zeroOffsets _ x1
  have l2 : View.ld x2 r0_0 = x2 := View.ld_unit_zero zeroOffsets _ x2
  have l3 : View.ld x3 r0_1 = x3 := View.ld_unit_zero zeroOffsets _ x3
  have l4 : View.ld x4 r0_3 = x4 := View.ld_unit_zero zeroOffsets _ x4
  have l5 : View.ld x5 r0_1 = x5 := View.ld_unit_zero zeroOffsets _ x5
  have l6 : View.ld x6 r0_2 = x6 := View.ld_unit_zero zeroOffsets _ x6
  unfold out0_8
  rw [l0, l1, l2, l3, l4, l5, l6]
  exact (Value.canon8_eq x0 x1 x3 x5 x4 x2 x6 (ix2 p j)).trans (cellBlock_apply x0 x1 x3 x5 x4 x2 x6 p j)

end Cert.Lstm.Block

end
-- ==== Proof.Array.lean ====
/-
  From the blocks to the arrays: what the two result arrays hold after the kernel's run.

  The grid has 32 points; point t works on rows 1024·t … 1024·t + 1023. The input, hidden and cell windows (and both
  result windows) move with t down the rows and always sit at column block 0; the two weight matrices, the peephole
  matrix and the bias row are each one block, the whole array, at every point. So the block a point reads from x, h or
  c is rows 1024·t + p of the array, what it reads of the weights is the weights, and the bias row it reads is the
  bias vector laid out as one row (the host reshapes it before the call). By the body's value at an entry, the block a
  point writes back is therefore the block of ONE whole-array function — the cell's formulas applied row by row — and
  since the 32 blocks tile the 32768 rows, the arrays end holding that function.
-/
import proofs.«132181_j91027536871504_1_alg».proof.Proof.Gen.KernelIdeal.Value
import proofs.«132181_j91027536871504_1_alg».proof.Proof.Block
import Idealize.ShloMosaic.Lib.Pipeline.Value
import Idealize.ShloMosaic.Lib.StableHlo.Run

noncomputable section

namespace Cert.Lstm.Kernel

open Cert.KernelIdeal Cert.KernelIdeal.Gen Idealize.ShloMosaic Idealize.ShloMosaic.TcCoe Idealize.SL.Sem
open Idealize.ShloMosaic.ValueIdx Idealize.ShloMosaic.StableHlo Cert.Lstm
open Idealize.ShloMosaic.Pipeline (Dat)

variable (m : (ℓ : Loc nD τ sig) → Buf (Elt Ideal) ℓ) (ρ : Dev nD → PrngReg)

/-! ## The index maps over the grid -/

/-- The printed index maps, decided over the 32 points: the three row windows and the cell-state result window sit at
    the hidden-state result window's row block and at column block 0; the weights and the bias row never move. -/
theorem idx_facts : ∀ t : Fin cfg0.N,
    win0_0.index t (0 : Fin 2) = win0_7.index t (0 : Fin 2) ∧ win0_0.index t (1 : Fin 2) = 0
    ∧ win0_1.index t (0 : Fin 2) = win0_7.index t (0 : Fin 2) ∧ win0_1.index t (1 : Fin 2) = 0
    ∧ win0_2.index t (0 : Fin 2) = win0_7.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (1 : Fin 2) = 0 ∧ win0_7.index t (0 : Fin 2) ≤ 31
    ∧ win0_8.index t (0 : Fin 2) = win0_7.index t (0 : Fin 2) ∧ win0_8.index t (1 : Fin 2) = 0 :=
  (by decide +kernel : ∀ t : Fin grid0.N, _)

/-- Every one of the 32 row blocks is some point's, for either result window. -/
theorem idx_onto7 : ∀ q : Fin 32, ∃ t : Fin cfg0.N, win0_7.index t = ![q.val, 0] :=
  (by decide +kernel : ∀ q : Fin 32, ∃ t : Fin grid0.N, win0_7.index t = ![q.val, 0])
theorem idx_onto8 : ∀ q : Fin 32, ∃ t : Fin cfg0.N, win0_8.index t = ![q.val, 0] :=
  (by decide +kernel : ∀ q : Fin 32, ∃ t : Fin grid0.N, win0_8.index t = ![q.val, 0])

/-! ## What a point reads -/

/-- The input window's block at point `t` is rows 1024·(row block) + p of the input array. -/
theorem inputBlock_apply (c : Dev nD) (t : Fin cfg0.N) (y : S1024x256.Idx) (i : S32768x256.Idx)
    (h0 : (i 0).val = win0_7.index t (0 : Fin 2) * 1024 + (y 0).val) (h1 : (i 1).val = (y 1).val) :
    (iblk m c 0 t : Vec Ideal S1024x256 .f32) y = (m ((c : Thread nD τ).loc main_arg0) : S32768x256.Idx → EReal) i := by
  obtain ⟨e0, e1, -⟩ := idx_facts t
  unfold iblk
  rw [View.read_apply]
  show V m c main_arg0 (((cfg0.win 0).blk t).view.emb y) = _
  rw [V_main_arg0 m c]
  refine congrArg _ (funext fun a => Fin.ext ?_)
  match a with
  | ⟨0, _⟩ => show win0_0.index t (0 : Fin 2) * 1024 + 1 * (y 0).val = (i 0).val; omega
  | ⟨1, _⟩ => show win0_0.index t (1 : Fin 2) * 256 + 1 * (y 1).val = (i 1).val; omega

/-- The hidden window's block, likewise. -/
theorem hiddenBlock_apply (c : Dev nD) (t : Fin cfg0.N) (y : S1024x256.Idx) (i : S32768x256.Idx)
    (h0 : (i 0).val = win0_7.index t (0 : Fin 2) * 1024 + (y 0).val) (h1 : (i 1).val = (y 1).val) :
    (iblk m c 1 t : Vec Ideal S1024x256 .f32) y = (m ((c : Thread nD τ).loc main_arg1) : S32768x256.Idx → EReal) i := by
  obtain ⟨-, -, e0, e1, -⟩ := idx_facts t
  unfold iblk
  rw [View.read_apply]
  show V m c main_arg1 (((cfg0.win 1).blk t).view.emb y) = _
  rw [V_main_arg1 m c]
  refine congrArg _ (funext fun a => Fin.ext ?_)
  match a with
  | ⟨0, _⟩ => show win0_1.index t (0 : Fin 2) * 1024 + 1 * (y 0).val = (i 0).val; omega
  | ⟨1, _⟩ => show win0_1.index t (1 : Fin 2) * 256 + 1 * (y 1).val = (i 1).val; omega

/-- The cell window's block, likewise. -/
theorem cellBlock_apply (c : Dev nD) (t : Fin cfg0.N) (y : S1024x256.Idx) (i : S32768x256.Idx)
    (h0 : (i 0).val = win0_7.index t (0 : Fin 2) * 1024 + (y 0).val) (h1 : (i 1).val = (y 1).val) :
    (iblk m c 2 t : Vec Ideal S1024x256 .f32) y = (m ((c : Thread nD τ).loc main_arg2) : S32768x256.Idx → EReal) i := by
  obtain ⟨-, -, -, -, e0, e1, -⟩ := idx_facts t
  unfold iblk
  rw [View.read_apply]
  show V m c main_arg2 (((cfg0.win 2).blk t).view.emb y) = _
  rw [V_main_arg2 m c]
  refine congrArg _ (funext fun a => Fin.ext ?_)
  match a with
  | ⟨0, _⟩ => show win0_2.index t (0 : Fin 2) * 1024 + 1 * (y 0).val = (i 0).val; omega
  | ⟨1, _⟩ => show win0_2.index t (1 : Fin 2) * 256 + 1 * (y 1).val = (i 1).val; omega

/-- The input weights' block is the whole matrix, at every point. -/
theorem wxBlock (c : Dev nD) (t : Fin cfg0.N) :
    (iblk m c 3 t : Vec Ideal S256x1024 .f32) = (m ((c : Thread nD τ).loc main_arg3) : S256x1024.Idx → EReal) := by
  obtain ⟨-, -, -, -, -, -, e0, e1, -⟩ := idx_facts t
  funext y
  unfold iblk
  rw [View.read_apply]
  show V m c main_arg3 (((cfg0.win 3).blk t).view.emb y) = _
  rw [V_main_arg3 m c]
  refine congrArg _ (funext fun a => Fin.ext ?_)
  match a with
  | ⟨0, _⟩ => show win0_3.index t (0 : Fin 2) * 256 + 1 * (y 0).val = (y 0).val; omega
  | ⟨1, _⟩ => show win0_3.index t (1 : Fin 2) * 1024 + 1 * (y 1).val = (y 1).val; omega

/-- The hidden weights' block is the whole matrix. -/
theorem whBlock (c : Dev nD) (t : Fin cfg0.N) :
    (iblk m c 5 t : Vec Ideal S256x1024 .f32) = (m ((c : Thread nD τ).loc main_arg5) : S256x1024.Idx → EReal) := by
  obtain ⟨-, -, -, -, -, -, -, -, -, -, e0, e1, -⟩ := idx_facts t
  funext y
  unfold iblk
  rw [View.read_apply]
  show V m c main_arg5 (((cfg0.win 5).blk t).view.emb y) = _
  rw [V_main_arg5 m c]
  refine congrArg _ (funext fun a => Fin.ext ?_)
  match a with
  | ⟨0, _⟩ => show win0_5.index t (0 : Fin 2) * 256 + 1 * (y 0).val = (y 0).val; omega
  | ⟨1, _⟩ => show win0_5.index t (1 : Fin 2) * 1024 + 1 * (y 1).val = (y 1).val; omega

/-- The peephole weights' block is the whole matrix. -/
theorem wcBlock (c : Dev nD) (t : Fin cfg0.N) :
    (iblk m c 6 t : Vec Ideal S256x768 .f32) = (m ((c : Thread nD τ).loc main_arg6) : S256x768.Idx → EReal) := by
  obtain ⟨-, -, -, -, -, -, -, -, -, -, -, -, e0, e1, -⟩ := idx_facts t
  funext y
  unfold iblk
  rw [View.read_apply]
  show V m c main_arg6 (((cfg0.win 6).blk t).view.emb y) = _
  rw [V_main_arg6 m c]
  refine congrArg _ (funext fun a => Fin.ext ?_)
  match a with
  | ⟨0, _⟩ => show win0_6.index t (0 : Fin 2) * 256 + 1 * (y 0).val = (y 0).val; omega
  | ⟨1, _⟩ => show win0_6.index t (1 : Fin 2) * 768 + 1 * (y 1).val = (y 1).val; omega

/-- The bias vector as a function of the column. -/
abbrev biasArg (c : Dev nD) : Fin 1024 → EReal :=
  fun q => (m ((c : Thread nD τ).loc main_arg4) : S1024.Idx → EReal) (ix1 q)

/-- The 1×1024 row the region finds is the bias vector in row-major order: entry (0, q) is entry q. -/
theorem biasRow_apply (c : Dev nD) (q : Fin 1024) :
    (V m c main_v0 : S1x1024.Idx → EReal) (ix2 0 q) = biasArg m c q := by
  have e : (V m c main_v0 : S1x1024.Idx → EReal)
      = shapeCast S1x1024 (m ((c : Thread nD τ).loc main_arg4) : S1024.Idx → EReal) shapeCasts_S1024_S1x1024 := by
    dsimp only [V, hostOps0]; after_results; rfl
  rw [e]
  refine shapeCast_apply _ _ (ix2 0 q) (ix1 q) ?_
  rw [Shape.rowMajor_val_one, Shape.rowMajor_val_two]
  show q.val = 0 * 1024 + q.val
  omega

/-- The bias window's block is that row, at every point. -/
theorem biasBlock_apply (c : Dev nD) (t : Fin cfg0.N) (q : Fin 1024) :
    (iblk m c 4 t : Vec Ideal S1x1024 .f32) (ix2 0 q) = biasArg m c q := by
  obtain ⟨-, -, -, -, -, -, -, -, e0, e1, -⟩ := idx_facts t
  refine Eq.trans ?_ (biasRow_apply m c q)
  unfold iblk
  rw [View.read_apply]
  show V m c main_v0 (((cfg0.win 4).blk t).view.emb (ix2 0 q)) = _
  refine congrArg _ (funext fun a => Fin.ext ?_)
  match a with
  | ⟨0, _⟩ => show win0_4.index t (0 : Fin 2) * 1 + 1 * 0 = 0; omega
  | ⟨1, _⟩ => show win0_4.index t (1 : Fin 2) * 1024 + 1 * q.val = q.val; omega

/-! ## What a point writes back -/

/-- The new hidden state of the whole batch, from the argument arrays. -/
abbrev hiddenArr (c : Dev nD) : S32768x256.Idx → EReal :=
  hiddenNext (R := 32768) (m ((c : Thread nD τ).loc main_arg0)) (m ((c : Thread nD τ).loc main_arg1))
    (m ((c : Thread nD τ).loc main_arg2)) (m ((c : Thread nD τ).loc main_arg3)) (m ((c : Thread nD τ).loc main_arg5))
    (biasArg m c) (m ((c : Thread nD τ).loc main_arg6))

/-- The new cell state of the whole batch, from the argument arrays. -/
abbrev cellArr (c : Dev nD) : S32768x256.Idx → EReal :=
  cellNext (R := 32768) (m ((c : Thread nD τ).loc main_arg0)) (m ((c : Thread nD τ).loc main_arg1))
    (m ((c : Thread nD τ).loc main_arg2)) (m ((c : Thread nD τ).loc main_arg3)) (m ((c : Thread nD τ).loc main_arg5))
    (biasArg m c) (m ((c : Thread nD τ).loc main_arg6))

/-- A hidden-state entry of a block is the whole-batch function at the array index under it: block entry (p, j) against
    array entry (r, j), when row p of the blocks of x, h, c is row r of the arrays and the bias row is the bias. -/
theorem hidden_point (x0 x1 x2 : Vec Ideal S1024x256 .f32) (x3 : Vec Ideal S256x1024 .f32) (x4 : Vec Ideal S1x1024 .f32)
    (x5 : Vec Ideal S256x1024 .f32) (x6 : Vec Ideal S256x768 .f32) (X H C : FVec Ideal S32768x256 .f32) (b : Fin 1024 → EReal)
    (y : S1024x256.Idx) (i : S32768x256.Idx) (p : Fin 1024) (j : Fin 256) (r : Fin 32768)
    (hy : y = ix2 p j) (hi : i = ix2 r j)
    (hX : ∀ k : Fin 256, x0 (ix2 p k) = X (ix2 r k)) (hH : ∀ k : Fin 256, x1 (ix2 p k) = H (ix2 r k))
    (hC : ∀ k : Fin 256, x2 (ix2 p k) = C (ix2 r k)) (hb : ∀ q : Fin 1024, x4 (ix2 0 q) = b q) :
    out0_7 (F := Ideal) x0 x1 x2 x3 x4 x5 x6 y = hiddenNext (R := 32768) X H C x3 x5 b x6 i := by
  subst hy hi
  have r0 : rowOf (R := 1024) x0 p = rowOf (R := 32768) X r := funext hX
  have r1 : rowOf (R := 1024) x1 p = rowOf (R := 32768) H r := funext hH
  have r2 : rowOf (R := 1024) x2 p = rowOf (R := 32768) C r := funext hC
  have hb' : Block.biasOf x4 = b := funext hb
  rw [Block.hiddenOut_apply, r0, r1, r2, hb']
  rfl

/-- The same for a cell-state entry. -/
theorem cell_point (x0 x1 x2 : Vec Ideal S1024x256 .f32) (x3 : Vec Ideal S256x1024 .f32) (x4 : Vec Ideal S1x1024 .f32)
    (x5 : Vec Ideal S256x1024 .f32) (x6 : Vec Ideal S256x768 .f32) (X H C : FVec Ideal S32768x256 .f32) (b : Fin 1024 → EReal)
    (y : S1024x256.Idx) (i : S32768x256.Idx) (p : Fin 1024) (j : Fin 256) (r : Fin 32768)
    (hy : y = ix2 p j) (hi : i = ix2 r j)
    (hX : ∀ k : Fin 256, x0 (ix2 p k) = X (ix2 r k)) (hH : ∀ k : Fin 256, x1 (ix2 p k) = H (ix2 r k))
    (hC : ∀ k : Fin 256, x2 (ix2 p k) = C (ix2 r k)) (hb : ∀ q : Fin 1024, x4 (ix2 0 q) = b q) :
    out0_8 (F := Ideal) x0 x1 x2 x3 x4 x5 x6 y = cellNext (R := 32768) X H C x3 x5 b x6 i := by
  subst hy hi
  have r0 : rowOf (R := 1024) x0 p = rowOf (R := 32768) X r := funext hX
  have r1 : rowOf (R := 1024) x1 p = rowOf (R := 32768) H r := funext hH
  have r2 : rowOf (R := 1024) x2 p = rowOf (R := 32768) C r := funext hC
  have hb' : Block.biasOf x4 = b := funext hb
  rw [Block.cellOut_apply, r0, r1, r2, hb']
  rfl

/-- What point `t` writes back to the hidden-state array is block `t` of the whole-batch function. -/
theorem flushed7_eq (c : Dev nD) (t : Fin cfg0.N) :
    (dats m 0 c).flushed 7 t = ((cfg0.win 7).blk t).view.read (Elt Ideal) (hiddenArr m c) := by
  rw [Value.flushed7]
  obtain ⟨-, -, -, -, -, -, -, -, -, -, -, -, -, -, e71, e7le, -⟩ := idx_facts t
  funext y
  rw [View.read_apply]
  show out0_7 (iblk m c 0 t) (iblk m c 1 t) (iblk m c 2 t) (iblk m c 3 t) (iblk m c 4 t) (iblk m c 5 t) (iblk m c 6 t) y
    = hiddenArr m c (((cfg0.win 7).blk t).view.emb y)
  have hy0 : (y 0).val < 1024 := (y 0).isLt
  have hy1 : (y 1).val < 256 := (y 1).isLt
  rw [wxBlock m c t, whBlock m c t, wcBlock m c t]
  refine hidden_point _ _ _ _ _ _ _ _ _ _ (biasArg m c) y _ ⟨(y 0).val, hy0⟩ ⟨(y 1).val, hy1⟩
    ⟨win0_7.index t (0 : Fin 2) * 1024 + (y 0).val, by omega⟩ ?_ ?_ (fun k => ?_) (fun k => ?_) (fun k => ?_)
    (fun q => biasBlock_apply m c t q)
  · exact funext fun a => Fin.ext (by match a with | ⟨0, _⟩ => rfl | ⟨1, _⟩ => rfl)
  · refine funext fun a => Fin.ext ?_
    match a with
    | ⟨0, _⟩ => show win0_7.index t (0 : Fin 2) * 1024 + 1 * (y 0).val = win0_7.index t (0 : Fin 2) * 1024 + (y 0).val; omega
    | ⟨1, _⟩ => show win0_7.index t (1 : Fin 2) * 256 + 1 * (y 1).val = (y 1).val; omega
  · exact inputBlock_apply m c t _ _ rfl rfl
  · exact hiddenBlock_apply m c t _ _ rfl rfl
  · exact cellBlock_apply m c t _ _ rfl rfl

/-- What point `t` writes back to the cell-state array is block `t` of the whole-batch function. -/
theorem flushed8_eq (c : Dev nD) (t : Fin cfg0.N) :
    (dats m 0 c).flushed 8 t = ((cfg0.win 8).blk t).view.read (Elt Ideal) (cellArr m c) := by
  rw [Value.flushed8]
  obtain ⟨-, -, -, -, -, -, -, -, -, -, -, -, -, -, e71, e7le, e80, e81⟩ := idx_facts t
  funext y
  rw [View.read_apply]
  show out0_8 (iblk m c 0 t) (iblk m c 1 t) (iblk m c 2 t) (iblk m c 3 t) (iblk m c 4 t) (iblk m c 5 t) (iblk m c 6 t) y
    = cellArr m c (((cfg0.win 8).blk t).view.emb y)
  have hy0 : (y 0).val < 1024 := (y 0).isLt
  have hy1 : (y 1).val < 256 := (y 1).isLt
  rw [wxBlock m c t, whBlock m c t, wcBlock m c t]
  refine cell_point _ _ _ _ _ _ _ _ _ _ (biasArg m c) y _ ⟨(y 0).val, hy0⟩ ⟨(y 1).val, hy1⟩
    ⟨win0_7.index t (0 : Fin 2) * 1024 + (y 0).val, by omega⟩ ?_ ?_ (fun k => ?_) (fun k => ?_) (fun k => ?_)
    (fun q => biasBlock_apply m c t q)
  · exact funext fun a => Fin.ext (by match a with | ⟨0, _⟩ => rfl | ⟨1, _⟩ => rfl)
  · refine funext fun a => Fin.ext ?_
    match a with
    | ⟨0, _⟩ => show win0_8.index t (0 : Fin 2) * 1024 + 1 * (y 0).val = win0_7.index t (0 : Fin 2) * 1024 + (y 0).val; omega
    | ⟨1, _⟩ => show win0_8.index t (1 : Fin 2) * 256 + 1 * (y 1).val = (y 1).val; omega
  · exact inputBlock_apply m c t _ _ rfl rfl
  · exact hiddenBlock_apply m c t _ _ rfl rfl
  · exact cellBlock_apply m c t _ _ rfl rfl

/-! ## The blocks tile the arrays -/

/-- An index of the hidden-state array is in point `t`'s block iff each coordinate is in the block's range. -/
theorem mem_blk7 (t : Fin cfg0.N) (i : S32768x256.Idx) :
    i ∈ ((cfg0.win 7).blk t).view.set ↔ ∀ a : Fin 2, win0_7.index t a * S1024x256.size a ≤ (i a).val
      ∧ (i a).val < win0_7.index t a * S1024x256.size a + S1024x256.size a := by
  show i ∈ ((View.whole main_v1_0).slice (win0_7.rect t)).set ↔ _
  rw [View.set_slice_whole, Rect.mem_set_unit]
  exact Iff.rfl

theorem mem_blk8 (t : Fin cfg0.N) (i : S32768x256.Idx) :
    i ∈ ((cfg0.win 8).blk t).view.set ↔ ∀ a : Fin 2, win0_8.index t a * S1024x256.size a ≤ (i a).val
      ∧ (i a).val < win0_8.index t a * S1024x256.size a + S1024x256.size a := by
  show i ∈ ((View.whole main_v1_1).slice (win0_8.rect t)).set ↔ _
  rw [View.set_slice_whole, Rect.mem_set_unit]
  exact Iff.rfl

/-- Row r lies in the block of the point whose row block is r / 1024. -/
theorem cover7 (i : S32768x256.Idx) :
    ∃ t : Fin cfg0.N, (cfg0.win 7).flush t = true ∧ i ∈ ((cfg0.win 7).blk t).view.set := by
  have hi0 : (i 0).val < 32768 := (i 0).isLt
  have hi1 : (i 1).val < 256 := (i 1).isLt
  obtain ⟨t, ht⟩ := idx_onto7 ⟨(i 0).val / 1024, by omega⟩
  have q0 : win0_7.index t (0 : Fin 2) = (i 0).val / 1024 := congrFun ht 0
  have q1 : win0_7.index t (1 : Fin 2) = 0 := congrFun ht 1
  refine ⟨t, flush0_7 t, ?_⟩
  rw [mem_blk7]
  intro a
  match a with
  | ⟨0, _⟩ => show win0_7.index t (0 : Fin 2) * 1024 ≤ (i 0).val ∧ (i 0).val < win0_7.index t (0 : Fin 2) * 1024 + 1024; omega
  | ⟨1, _⟩ => show win0_7.index t (1 : Fin 2) * 256 ≤ (i 1).val ∧ (i 1).val < win0_7.index t (1 : Fin 2) * 256 + 256; omega

theorem cover8 (i : S32768x256.Idx) :
    ∃ t : Fin cfg0.N, (cfg0.win 8).flush t = true ∧ i ∈ ((cfg0.win 8).blk t).view.set := by
  have hi0 : (i 0).val < 32768 := (i 0).isLt
  have hi1 : (i 1).val < 256 := (i 1).isLt
  obtain ⟨t, ht⟩ := idx_onto8 ⟨(i 0).val / 1024, by omega⟩
  have q0 : win0_8.index t (0 : Fin 2) = (i 0).val / 1024 := congrFun ht 0
  have q1 : win0_8.index t (1 : Fin 2) = 0 := congrFun ht 1
  refine ⟨t, flush0_8 t, ?_⟩
  rw [mem_blk8]
  intro a
  match a with
  | ⟨0, _⟩ => show win0_8.index t (0 : Fin 2) * 1024 ≤ (i 0).val ∧ (i 0).val < win0_8.index t (0 : Fin 2) * 1024 + 1024; omega
  | ⟨1, _⟩ => show win0_8.index t (1 : Fin 2) * 256 ≤ (i 1).val ∧ (i 1).val < win0_8.index t (1 : Fin 2) * 256 + 256; omega

/-- The hidden-state array after the run. -/
theorem final7 (c : Dev nD) : (dats m 0 c).arrAt 7 cfg0.N = hiddenArr m c :=
  (dats m 0 c).arrAt_eq_of_cover 7 (hiddenArr m c) (fun t _ => flushed7_eq m c t) cover7

/-- The cell-state array after the run. -/
theorem final8 (c : Dev nD) : (dats m 0 c).arrAt 8 cfg0.N = cellArr m c :=
  (dats m 0 c).arrAt_eq_of_cover 8 (cellArr m c) (fun t _ => flushed8_eq m c t) cover8

/-! ## The run, read -/

/-- Every weakly fair execution of the kernel's program terminates with the two result arrays at the cell's
    whole-batch functions of the argument arrays, and the arguments unchanged. -/
theorem run : θ_run defs (onTc (τ := τ) (main (F := Ideal))) ⟨m, fun _ => 0, ρ⟩ fun r => ∀ c : Dev nD,
      r.2.mem ((c : Thread nD τ).loc main_v1_0) = hiddenArr m c
      ∧ r.2.mem ((c : Thread nD τ).loc main_v1_1) = cellArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6) :=
  (θ_run defs _ _).mono (fun r h c => ⟨(h c).1.trans (final7 m c), (h c).2.1.trans (final8 m c), (h c).2.2⟩)
    (Value.run_blocks m ρ)

end Cert.Lstm.Kernel

end
-- ==== Proof.Ref.lean ====
/-
  The reference program's two results are the cell's two formulas, entry by entry.

  The reference forms z = (x·Wx + bias) + h·Wh and p = c·Wc over the whole batch, cuts z into four and p into three
  blocks of 256 columns, writes the logistic function as 1 / (1 + exp(−t)), and returns σ(z₃+p₂)·tanh(c') and
  c' = σ(z₀+p₀)·tanh z₂ + σ(z₁+p₁)·c. Read at entry (r, j): z at (r, q) is row r's gate pre-activation at column q,
  p at (r, q) its peephole projection, and 1 / (1 + exp(−t)) is the logistic function on every extended real by its
  definition (the literal 1.0 denotes the real one).
-/
import proofs.«132181_j91027536871504_1_alg».proof.Proof.Gen.ReferenceIdeal.Read
import proofs.«132181_j91027536871504_1_alg».proof.Proof.Cell
import Idealize.ShloMosaic.Lib.IdealHost

noncomputable section

namespace Cert.Lstm.Ref

open Cert.ReferenceIdeal Cert.ReferenceIdeal.Read Idealize.ShloMosaic Idealize.ShloMosaic.ValueIdx Cert.Lstm
open scoped BigOperators

/-- The bias as a function of the column, from its vector of 1024 entries. -/
abbrev biasOf (b : (⟨S1024, .f32⟩ : BufTy).Contents (Elt Ideal)) : Fin 1024 → EReal := fun q => b (ix1 q)

/-- The reference's spelling of the logistic function. -/
theorem one_div_one_add_exp_neg (z : EReal) :
    Ideal.div (Ideal.ofBits .f32 0x3F800000#32) (Ideal.ofBits .f32 0x3F800000#32 + Ideal.exp (-z)) = Ideal.logistic z := by
  rw [Ideal.ofBits_one_f32]; rfl

section
variable (x0 x1 x2 : (⟨S32768x256, .f32⟩ : BufTy).Contents (Elt Ideal)) (x3 : (⟨S256x1024, .f32⟩ : BufTy).Contents (Elt Ideal))
  (x4 : (⟨S1024, .f32⟩ : BufTy).Contents (Elt Ideal)) (x5 : (⟨S256x1024, .f32⟩ : BufTy).Contents (Elt Ideal))
  (x6 : (⟨S256x768, .f32⟩ : BufTy).Contents (Elt Ideal))

/-- The reference's z at (r, q): row r's gate pre-activation at column q. -/
theorem gates_apply (r : Fin 32768) (q : Fin 1024) :
    val_main_v5 (F := Ideal) x0 x1 x3 x4 x5 (ix2 r q)
      = gate (rowOf (R := 32768) x0 r) (rowOf (R := 32768) x1 r) x3 x5 (biasOf x4) q := by
  have hl0 : ∀ k : Fin 256, lidx_main_v0 (ix2 r q) k = ix2 r k := fun k => funext fun a => Fin.ext (by match a with | ⟨0, _⟩ => rfl | ⟨1, _⟩ => rfl)
  have hr0 : ∀ k : Fin 256, ridx_main_v0 (ix2 r q) k = ix2 k q := fun k => funext fun a => Fin.ext (by match a with | ⟨0, _⟩ => rfl | ⟨1, _⟩ => rfl)
  have hl4 : ∀ k : Fin 256, lidx_main_v4 (ix2 r q) k = ix2 r k := fun k => funext fun a => Fin.ext (by match a with | ⟨0, _⟩ => rfl | ⟨1, _⟩ => rfl)
  have hr4 : ∀ k : Fin 256, ridx_main_v4 (ix2 r q) k = ix2 k q := fun k => funext fun a => Fin.ext (by match a with | ⟨0, _⟩ => rfl | ⟨1, _⟩ => rfl)
  have hb : idx_main_v1 (idx_main_v2 (ix2 r q)) = ix1 q := funext fun a => Fin.ext (by match a with | ⟨0, _⟩ => rfl)
  simp only [val_main_v5_apply, val_main_v3_apply, val_main_v0_apply, val_main_v2_apply, val_main_v1_apply, val_main_v4_apply,
    hl0, hr0, hl4, hr4, hb, Ideal.addf_def]
  rfl

/-- The reference's p at (r, q): row r's peephole projection at column q. -/
theorem peep_apply (r : Fin 32768) (q : Fin 768) :
    val_main_v6 (F := Ideal) x2 x6 (ix2 r q) = peep (rowOf (R := 32768) x2 r) x6 q := by
  have hl : ∀ k : Fin 256, lidx_main_v6 (ix2 r q) k = ix2 r k := fun k => funext fun a => Fin.ext (by match a with | ⟨0, _⟩ => rfl | ⟨1, _⟩ => rfl)
  have hr : ∀ k : Fin 256, ridx_main_v6 (ix2 r q) k = ix2 k q := fun k => funext fun a => Fin.ext (by match a with | ⟨0, _⟩ => rfl | ⟨1, _⟩ => rfl)
  simp only [val_main_v6_apply, hl, hr]
  rfl

/-- The reference's new cell state at (r, j). -/
theorem cell_apply (r : Fin 32768) (j : Fin 256) :
    val_main_v31 (F := Ideal) x0 x1 x2 x3 x4 x5 x6 (ix2 r j)
      = cellAt (rowOf (R := 32768) x0 r) (rowOf (R := 32768) x1 r) (rowOf (R := 32768) x2 r) x3 x5 (biasOf x4) x6 j := by
  have s7 : idx_main_v7 (ix2 r j) = ix2 r (gateCol 1024 0 (by decide) j) := funext fun a => Fin.ext (by match a with | ⟨0, _⟩ => rfl | ⟨1, _⟩ => rfl)
  have s8 : idx_main_v8 (ix2 r j) = ix2 r (gateCol 1024 256 (by decide) j) := funext fun a => Fin.ext (by match a with | ⟨0, _⟩ => rfl | ⟨1, _⟩ => exact Nat.add_comm _ _)
  have s9 : idx_main_v9 (ix2 r j) = ix2 r (gateCol 1024 512 (by decide) j) := funext fun a => Fin.ext (by match a with | ⟨0, _⟩ => rfl | ⟨1, _⟩ => exact Nat.add_comm _ _)
  have s11 : idx_main_v11 (ix2 r j) = ix2 r (gateCol 768 0 (by decide) j) := funext fun a => Fin.ext (by match a with | ⟨0, _⟩ => rfl | ⟨1, _⟩ => rfl)
  have s12 : idx_main_v12 (ix2 r j) = ix2 r (gateCol 768 256 (by decide) j) := funext fun a => Fin.ext (by match a with | ⟨0, _⟩ => rfl | ⟨1, _⟩ => exact Nat.add_comm _ _)
  unfold cellAt
  simp only [val_main_v31_apply, val_main_v29_apply, val_main_v20_apply, val_main_v19_apply, val_main_cst_0_apply, val_main_v18_apply,
    val_main_v17_apply, val_main_cst_apply, val_main_v16_apply, val_main_v15_apply, val_main_v14_apply, val_main_v7_apply,
    val_main_v11_apply, val_main_v28_apply, val_main_v9_apply, val_main_v30_apply, val_main_v27_apply, val_main_v26_apply,
    val_main_cst_2_apply, val_main_v25_apply, val_main_v24_apply, val_main_cst_1_apply, val_main_v23_apply, val_main_v22_apply,
    val_main_v21_apply, val_main_v8_apply, val_main_v12_apply, s7, s8, s9, s11, s12, gates_apply, peep_apply,
    Ideal.addf_def, Ideal.mulf_def, Ideal.hostDivf_def, Ideal.hostUnary_exp_def, Ideal.hostUnary_tanh_def, Ideal.hostNegf_def,
    Ideal.negf_def, Ideal.ofBits_def, one_div_one_add_exp_neg]

/-- The reference's new hidden state at (r, j). -/
theorem hidden_apply (r : Fin 32768) (j : Fin 256) :
    val_main_v40 (F := Ideal) x0 x1 x2 x3 x4 x5 x6 (ix2 r j)
      = hiddenAt (rowOf (R := 32768) x0 r) (rowOf (R := 32768) x1 r) (rowOf (R := 32768) x2 r) x3 x5 (biasOf x4) x6 j := by
  have s10 : idx_main_v10 (ix2 r j) = ix2 r (gateCol 1024 768 (by decide) j) := funext fun a => Fin.ext (by match a with | ⟨0, _⟩ => rfl | ⟨1, _⟩ => exact Nat.add_comm _ _)
  have s13 : idx_main_v13 (ix2 r j) = ix2 r (gateCol 768 512 (by decide) j) := funext fun a => Fin.ext (by match a with | ⟨0, _⟩ => rfl | ⟨1, _⟩ => exact Nat.add_comm _ _)
  unfold hiddenAt
  simp only [val_main_v40_apply, val_main_v39_apply, cell_apply, val_main_v38_apply, val_main_v37_apply, val_main_cst_4_apply,
    val_main_v36_apply, val_main_v35_apply, val_main_cst_3_apply, val_main_v34_apply, val_main_v33_apply, val_main_v32_apply,
    val_main_v10_apply, val_main_v13_apply, s10, s13, gates_apply, peep_apply,
    Ideal.addf_def, Ideal.mulf_def, Ideal.hostDivf_def, Ideal.hostUnary_exp_def, Ideal.hostUnary_tanh_def, Ideal.hostNegf_def,
    Ideal.negf_def, Ideal.ofBits_def, one_div_one_add_exp_neg]

/-- The reference's second result is the new cell state of the whole batch. -/
theorem cell_eq :
    val_main_v31 (F := Ideal) x0 x1 x2 x3 x4 x5 x6 = cellNext (R := 32768) x0 x1 x2 x3 x5 (biasOf x4) x6 := by
  funext i
  obtain ⟨r, j, rfl⟩ : ∃ (r : Fin 32768) (j : Fin 256), i = ix2 r j := ⟨i 0, i 1, eq_ix2 i⟩
  exact cell_apply x0 x1 x2 x3 x4 x5 x6 r j

/-- The reference's first result is the new hidden state of the whole batch. -/
theorem hidden_eq :
    val_main_v40 (F := Ideal) x0 x1 x2 x3 x4 x5 x6 = hiddenNext (R := 32768) x0 x1 x2 x3 x5 (biasOf x4) x6 := by
  funext i
  obtain ⟨r, j, rfl⟩ : ∃ (r : Fin 32768) (j : Fin 256), i = ix2 r j := ⟨i 0, i 1, eq_ix2 i⟩
  exact hidden_apply x0 x1 x2 x3 x4 x5 x6 r j

end

end Cert.Lstm.Ref

end
-- ==== Proof.lean ====
/-
  A single step of a peephole LSTM cell over a batch of 32768 rows of width 256: the tiled kernel against the plain
  reference, equal on the extended reals.

  Both programs compute, for every row, the gate pre-activations z = x·Wx + h·Wh + bias (1024 columns, four gates of 256)
  and the peephole projections p = c·Wc (768 columns, three gates), then
      c' = σ(z₀ + p₀)·tanh z₂ + σ(z₁ + p₁)·c      and      h' = σ(z₃ + p₂)·tanh c'.
  They differ in three ways, none of which changes an extended real. The kernel narrows the matrix operands to bf16
  before multiplying, and a change of format is the identity here. The kernel adds the bias after both products, the
  reference between them: addition is commutative and associative on the extended reals, at the infinities too. The
  kernel's logistic is one operation, the reference writes 1 / (1 + exp(−t)): that is the operation's definition. And
  the kernel works on 32 blocks of 1024 rows, which changes nothing because a row of the result depends on the same row
  of x, h and c only. No step uses that the inputs are finite.

  The kernel's side is read off its generated run block by block and assembled into whole-array functions of the
  arguments; the reference's side is its generated run read at an index; both are stated with the same two functions
  (the cell's formulas applied row by row), so the agreement of the arguments finishes the claim. The word-level
  kernel's idealization rewrote no operation, so there is nothing to preserve beyond the program's own text.
-/
import proofs.«132181_j91027536871504_1_alg».proof.Defs
import proofs.«132181_j91027536871504_1_alg».proof.Proof.Gen.Kernel
import proofs.«132181_j91027536871504_1_alg».proof.Proof.Gen.Kernel.Skeleton
import proofs.«132181_j91027536871504_1_alg».proof.Proof.Gen.Kernel.Launch
import proofs.«132181_j91027536871504_1_alg».proof.Proof.Gen.Kernel.Points
import proofs.«132181_j91027536871504_1_alg».proof.Proof.Gen.Kernel.Frame
import proofs.«132181_j91027536871504_1_alg».proof.Proof.Gen.KernelIdeal
import proofs.«132181_j91027536871504_1_alg».proof.Proof.Gen.KernelIdeal.Skeleton
import proofs.«132181_j91027536871504_1_alg».proof.Proof.Gen.KernelIdeal.Launch
import proofs.«132181_j91027536871504_1_alg».proof.Proof.Gen.KernelIdeal.Points
import proofs.«132181_j91027536871504_1_alg».proof.Proof.Gen.KernelIdeal.Frame
import proofs.«132181_j91027536871504_1_alg».proof.Proof.Gen.ReferenceIdeal
import proofs.«132181_j91027536871504_1_alg».proof.Proof.Gen.Pre_finite_inputs
import proofs.«132181_j91027536871504_1_alg».proof.Proof.Gen.KernelIdeal.Value
import proofs.«132181_j91027536871504_1_alg».proof.Proof.Gen.ReferenceIdeal.Run
import proofs.«132181_j91027536871504_1_alg».proof.Proof.Gen.ReferenceIdeal.Read
import proofs.«132181_j91027536871504_1_alg».proof.Proof.Array
import proofs.«132181_j91027536871504_1_alg».proof.Proof.Ref
import Idealize.ShloMosaic.Adequacy
import Idealize.ShloMosaic.Init

noncomputable section

namespace Cert.Proof

open Idealize.ShloMosaic Idealize.SL.Sem

/-- The word-level kernel runs to completion and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run, with the two results forgotten. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- From memories that agree on the arguments, the kernel's two result arrays and the reference's two results are the
    same two functions of the arguments: the new hidden state and the new cell state of the whole batch. -/
theorem algebraic : Cert.algebraic_KernelIdeal_ReferenceIdeal := by
  intro m ρ m' ρ' _ hagree
  refine ⟨fun c => Cert.Lstm.Kernel.hiddenArr m c, fun c => Cert.Lstm.Kernel.cellArr m c, Cert.Lstm.Kernel.run m ρ, ?_⟩
  refine (θ_run Cert.ReferenceIdeal.defs _ _).mono (fun _ h c => ⟨(h c).1.trans ?_, (h c).2.1.trans ?_, (h c).2.2⟩)
    (Cert.ReferenceIdeal.Value.run (F := Ideal) m' ρ')
  · refine (Cert.ReferenceIdeal.Read.val_main_v40_eq _ _ _ _ _ _ _).trans ?_
    obtain ⟨a0, a1, a2, a3, a4, a5, a6⟩ := hagree c
    rw [Cert.Lstm.Ref.hidden_eq, a0, a1, a2, a3, a4, a5, a6]
  · refine (Cert.ReferenceIdeal.Read.val_main_v31_eq _ _ _ _ _ _ _).trans ?_
    obtain ⟨a0, a1, a2, a3, a4, a5, a6⟩ := hagree c
    rw [Cert.Lstm.Ref.cell_eq, a0, a1, a2, a3, a4, a5, a6]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
